-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x4 : Shape := ⟨2, ![300000, 4]⟩
abbrev S300000x32 : Shape := ⟨2, ![300000, 32]⟩
abbrev S_ : Shape := ⟨0, ![]⟩

class Facts : Prop where
  bcast_S_S300000x32 : S_.BroadcastsInDim S300000x32 (![] : Fin 0 → Fin S300000x32.rank)
  reducesTo_S300000x32_S_d0_1 : S300000x32.ReducesTo [0, 1] S_
  h_S_ : 0 < S_.numel

variable [Facts]

def fn {F : FTy → Type} [FloatOps F] (main_arg0 : IVec S300000x4 32) (main_arg1 : FVec F S300000x32 .f32) : IVec S_ 1 :=
  let main_v0 : FVec F S300000x32 .f32 := Host.absf main_arg1
  let main_cst : FVec F S_ .f32 := constant S_ .f32 0x7F800000#32
  let main_v1 : FVec F S300000x32 .f32 := broadcastInDim S300000x32 ![] bcast_S_S300000x32 main_cst
  let main_v2 : IVec S300000x32 1 := cmpf .olt main_v0 main_v1
  let main_c : IVec S_ 1 := constantI S_ 1 1#1
  let main_v3 : IVec S_ 1 := (fun x v => Host.reduce IntOp.andi x v reducesTo_S300000x32_S_d0_1 h_S_) main_v2 main_c
  main_v3
-- ==== Kernel.lean ====
abbrev S300000x4 : Shape := ⟨2, ![300000, 4]⟩
abbrev S300000x32 : Shape := ⟨2, ![300000, 32]⟩
abbrev S300000x1 : Shape := ⟨2, ![300000, 1]⟩
abbrev S300000 : Shape := ⟨1, ![300000]⟩
abbrev S_ : Shape := ⟨0, ![]⟩
abbrev S3840000x32 : Shape := ⟨2, ![3840000, 32]⟩
abbrev S2x160000x384 : Shape := ⟨3, ![2, 160000, 384]⟩
abbrev S2x384x160000 : Shape := ⟨3, ![2, 384, 160000]⟩
abbrev S1x6400x128 : Shape := ⟨3, ![1, 6400, 128]⟩
abbrev S1x128x6400 : Shape := ⟨3, ![1, 128, 6400]⟩
abbrev S6400x128 : Shape := ⟨2, ![6400, 128]⟩
abbrev S128x6400 : Shape := ⟨2, ![128, 6400]⟩
abbrev S2x384x400x400 : Shape := ⟨4, ![2, 384, 400, 400]⟩

abbrev nBuf : Space → Nat
  | .hbm => 44
  | .vmem => 4
  | .smem => 0
  | _ => 0

abbrev bufTy : (tb : Table) → Fin (tcTables nBuf tb) → BufTy
  | .hbm, ⟨0, _⟩ => ⟨S300000x4, .i32⟩
  | .hbm, ⟨1, _⟩ => ⟨S300000x32, .f32⟩
  | .hbm, ⟨2, _⟩ => ⟨S300000x1, .i32⟩
  | .hbm, ⟨3, _⟩ => ⟨S300000, .i32⟩
  | .hbm, ⟨4, _⟩ => ⟨S300000x1, .i32⟩
  | .hbm, ⟨5, _⟩ => ⟨S300000, .i32⟩
  | .hbm, ⟨6, _⟩ => ⟨S300000x1, .i32⟩
  | .hbm, ⟨7, _⟩ => ⟨S300000, .i32⟩
  | .hbm, ⟨8, _⟩ => ⟨S300000x1, .i32⟩
  | .hbm, ⟨9, _⟩ => ⟨S300000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S_, .f32⟩
  | .hbm, ⟨31, _⟩ => ⟨S3840000x32, .f32⟩
  | .hbm, ⟨32, _⟩ => ⟨S_, .i32⟩
  | .hbm, ⟨33, _⟩ => ⟨S300000, .i32⟩
  | .hbm, ⟨34, _⟩ => ⟨S300000, .i1⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S300000, .i32⟩
  | .hbm, ⟨39, _⟩ => ⟨S300000x1, .i32⟩
  | .hbm, ⟨40, _⟩ => ⟨S3840000x32, .f32⟩
  | .hbm, ⟨41, _⟩ => ⟨S2x160000x384, .f32⟩
  | .hbm, ⟨42, _⟩ => ⟨S2x384x160000, .f32⟩
  | .hbm, ⟨43, _⟩ => ⟨S2x384x400x400, .f32⟩
  | .local _ .vmem, ⟨0, _⟩ => ⟨S1x6400x128, .f32⟩
  | .local _ .vmem, ⟨1, _⟩ => ⟨S1x6400x128, .f32⟩
  | .local _ .vmem, ⟨2, _⟩ => ⟨S1x128x6400, .f32⟩
  | .local _ .vmem, ⟨3, _⟩ => ⟨S1x128x6400, .f32⟩
  | _, _ => ⟨S300000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 25, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  slices_S300000x4_S300000x1_0_3 : S300000x4.Slices ![0, 3] S300000x1
  shapeCasts_S300000x1_S300000 : S300000x1.ShapeCasts S300000
  slices_S300000x4_S300000x1_0_0 : S300000x4.Slices ![0, 0] S300000x1
  slices_S300000x4_S300000x1_0_1 : S300000x4.Slices ![0, 1] S300000x1
  slices_S300000x4_S300000x1_0_2 : S300000x4.Slices ![0, 2] S300000x1
  bcast_S_S300000 : S_.BroadcastsInDim S300000 (![] : Fin 0 → Fin S300000.rank)
  bcast_S_S3840000x32 : S_.BroadcastsInDim S3840000x32 (![] : Fin 0 → Fin S3840000x32.rank)
  bcast_S300000_S300000x1_0 : S300000.BroadcastsInDim S300000x1 (![0] : Fin 1 → Fin S300000x1.rank)
  shapeCasts_S3840000x32_S2x160000x384 : S3840000x32.ShapeCasts S2x160000x384
  inb_S1x6400x128_S1x6400x128_0_0_0 : ∀ a, (![0, 0, 0] : Fin 3 → Nat) a + S1x6400x128.size a ≤ S1x6400x128.size a
  h_S1x6400x128 : 0 < S1x6400x128.numel
  shapeCasts_S1x6400x128_S6400x128 : S1x6400x128.ShapeCasts S6400x128
  transposes_S6400x128_p1_0_S128x6400 : S6400x128.Transposes [1, 0] S128x6400
  inb_S1x128x6400_S1x128x6400_0_0_0 : ∀ a, (![0, 0, 0] : Fin 3 → Nat) a + S1x128x6400.size a ≤ S1x128x6400.size a
  h_S1x128x6400 : 0 < S1x128x6400.numel
  shapeCasts_S1x128x6400_S128x6400 : S1x128x6400.ShapeCasts S128x6400
  shapeCasts_S128x6400_S1x128x6400 : S128x6400.ShapeCasts S1x128x6400
  shapeCasts_S2x384x160000_S2x384x400x400 : S2x384x160000.ShapeCasts S2x384x400x400
  scatter_S3840000x32_S300000x1_S300000x32_1_0_0_1_wf : ScatterDims.WF S3840000x32 S300000x1 S300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400x128.size a ≤ S2x160000x384.size a
  hwx0_0 : ∀ i : grid0.Coords, EltTy.bits .f32 = 32 ∨ (Rect.block (s := S2x160000x384) S1x6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x6400.size a ≤ S2x384x160000.size a
  hwx0_1 : ∀ i : grid0.Coords, EltTy.bits .f32 = 32 ∨ (Rect.block (s := S2x384x160000) S1x128x6400.size (cc0_transform_1 i) (hinb0_1 i)).WholeWords (EltTy.packing .f32)

variable [Facts₀]

def scatter_S3840000x32_S300000x1_S300000x32_1_0_0_1 : ScatterDims S3840000x32 S300000x1 S300000x32 where
  updateWindowDims := [1]
  insertedWindowDims := [0]
  scatterDimsToOperandDims := [0]
  indexVectorDim := 1
  wf := scatter_S3840000x32_S300000x1_S300000x32_1_0_0_1_wf

abbrev win0_0 : Pipeline.Window sig grid0 :=
  Pipeline.Window.ofSpec (Memref.whole main_v26) S1x6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x128x6400.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S300000x4 : Shape := ⟨2, ![300000, 4]⟩
abbrev S300000x32 : Shape := ⟨2, ![300000, 32]⟩
abbrev S3 : Shape := ⟨1, ![3]⟩
abbrev S300000x1 : Shape := ⟨2, ![300000, 1]⟩
abbrev S300000 : Shape := ⟨1, ![300000]⟩
abbrev S300000x3 : Shape := ⟨2, ![300000, 3]⟩
abbrev S1x3 : Shape := ⟨2, ![1, 3]⟩
abbrev S_ : Shape := ⟨0, ![]⟩
abbrev S3840000x32 : Shape := ⟨2, ![3840000, 32]⟩
abbrev S2x400x400x384 : Shape := ⟨4, ![2, 400, 400, 384]⟩
abbrev S2x384x400x400 : Shape := ⟨4, ![2, 384, 400, 400]⟩

abbrev nBuf : Space → Nat
  | .hbm => 66
  | .vmem => 0
  | .smem => 0
  | _ => 0

abbrev bufTy : (tb : Table) → Fin (tcTables nBuf tb) → BufTy
  | .hbm, ⟨0, _⟩ => ⟨S300000x4, .i32⟩
  | .hbm, ⟨1, _⟩ => ⟨S300000x32, .f32⟩
  | .hbm, ⟨2, _⟩ => ⟨S3, .i32⟩
  | .hbm, ⟨3, _⟩ => ⟨S3, .i32⟩
  | .hbm, ⟨4, _⟩ => ⟨S300000x1, .i32⟩
  | .hbm, ⟨5, _⟩ => ⟨S300000, .i32⟩
  | .hbm, ⟨6, _⟩ => ⟨S300000x3, .i32⟩
  | .hbm, ⟨7, _⟩ => ⟨S1x3, .i32⟩
  | .hbm, ⟨8, _⟩ => ⟨S300000x3, .i32⟩
  | .hbm, ⟨9, _⟩ => ⟨S300000x3, .i32⟩
  | .hbm, ⟨10, _⟩ => ⟨S1x3, .i32⟩
  | .hbm, ⟨11, _⟩ => ⟨S300000x3, .i32⟩
  | .hbm, ⟨12, _⟩ => ⟨S300000x3, .i32⟩
  | .hbm, ⟨13, _⟩ => ⟨S300000x3, .i32⟩
  | .hbm, ⟨14, _⟩ => ⟨S1x3, .i32⟩
  | .hbm, ⟨15, _⟩ => ⟨S300000x3, .i32⟩
  | .hbm, ⟨16, _⟩ => ⟨S300000x3, .i1⟩
  | .hbm, ⟨17, _⟩ => ⟨S300000x3, .i32⟩
  | .hbm, ⟨18, _⟩ => ⟨S300000x3, .i32⟩
  | .hbm, ⟨19, _⟩ => ⟨S_, .i32⟩
  | .hbm, ⟨20, _⟩ => ⟨S300000x3, .i32⟩
  | .hbm, ⟨21, _⟩ => ⟨S300000x3, .i1⟩
  | .hbm, ⟨22, _⟩ => ⟨S300000x3, .i1⟩
  | .hbm, ⟨23, _⟩ => ⟨S_, .i32⟩
  | .hbm, ⟨24, _⟩ => ⟨S300000x3, .i32⟩
  | .hbm, ⟨25, _⟩ => ⟨S300000x3, .i32⟩
  | .hbm, ⟨26, _⟩ => ⟨S300000x3, .i32⟩
  | .hbm, ⟨27, _⟩ => ⟨S300000x1, .i32⟩
  | .hbm, ⟨28, _⟩ => ⟨S300000, .i32⟩
  | .hbm, ⟨29, _⟩ => ⟨S300000x1, .i32⟩
  | .hbm, ⟨30, _⟩ => ⟨S300000, .i32⟩
  | .hbm, ⟨31, _⟩ => ⟨S300000x1, .i32⟩
  | .hbm, ⟨32, _⟩ => ⟨S300000, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S_, .i32⟩
  | .hbm, ⟨42, _⟩ => ⟨S300000, .i32⟩
  | .hbm, ⟨43, _⟩ => ⟨S300000, .i32⟩
  | .hbm, ⟨44, _⟩ => ⟨S_, .i32⟩
  | .hbm, ⟨45, _⟩ => ⟨S300000, .i32⟩
  | .hbm, ⟨46, _⟩ => ⟨S300000, .i32⟩
  | .hbm, ⟨47, _⟩ => ⟨S300000, .i32⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S_, .f32⟩
  | .hbm, ⟨54, _⟩ => ⟨S3840000x32, .f32⟩
  | .hbm, ⟨55, _⟩ => ⟨S_, .i32⟩
  | .hbm, ⟨56, _⟩ => ⟨S300000, .i32⟩
  | .hbm, ⟨57, _⟩ => ⟨S300000, .i1⟩
  | .hbm, ⟨58, _⟩ => ⟨S_, .i32⟩
  | .hbm, ⟨59, _⟩ => ⟨S300000, .i32⟩
  | .hbm, ⟨60, _⟩ => ⟨S300000, .i32⟩
  | .hbm, ⟨61, _⟩ => ⟨S300000, .i32⟩
  | .hbm, ⟨62, _⟩ => ⟨S300000x1, .i32⟩
  | .hbm, ⟨63, _⟩ => ⟨S3840000x32, .f32⟩
  | .hbm, ⟨64, _⟩ => ⟨S2x400x400x384, .f32⟩
  | .hbm, ⟨65, _⟩ => ⟨S2x384x400x400, .f32⟩
  | _, _ => ⟨S300000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]

class Facts₀ : Prop where
  slices_S300000x4_S300000x1_0_3 : S300000x4.Slices ![0, 3] S300000x1
  shapeCasts_S300000x1_S300000 : S300000x1.ShapeCasts S300000
  slices_S300000x4_S300000x3_0_0 : S300000x4.Slices ![0, 0] S300000x3
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  slices_S300000x3_S300000x1_0_0 : S300000x3.Slices ![0, 0] S300000x1
  slices_S300000x3_S300000x1_0_2 : S300000x3.Slices ![0, 2] S300000x1
  slices_S300000x3_S300000x1_0_1 : S300000x3.Slices ![0, 1] S300000x1
  bcast_S_S300000 : S_.BroadcastsInDim S300000 (![] : Fin 0 → Fin S300000.rank)
  bcast_S_S3840000x32 : S_.BroadcastsInDim S3840000x32 (![] : Fin 0 → Fin S3840000x32.rank)
  bcast_S300000_S300000x1_0 : S300000.BroadcastsInDim S300000x1 (![0] : Fin 1 → Fin S300000x1.rank)
  shapeCasts_S3840000x32_S2x400x400x384 : S3840000x32.ShapeCasts S2x400x400x384
  transposes_S2x400x400x384_S2x384x400x400_0_3_1_2 : S2x400x400x384.Transposes [0, 3, 1, 2] S2x384x400x400
  scatter_S3840000x32_S300000x1_S300000x32_1_0_0_1_wf : ScatterDims.WF S3840000x32 S300000x1 S300000x32 [1] [0] [0] 1

variable [Facts₀]

def scatter_S3840000x32_S300000x1_S300000x32_1_0_0_1 : ScatterDims S3840000x32 S300000x1 S300000x32 where
  updateWindowDims := [1]
  insertedWindowDims := [0]
  scatterDimsToOperandDims := [0]
  indexVectorDim := 1
  wf := scatter_S3840000x32_S300000x1_S300000x32_1_0_0_1_wf

class Facts : Prop extends Facts₀ where

variable [Facts]
-- ==== Proof.Spec.lean ====
/-
  The mathematics both programs share, stated once over literal shapes and with no program in sight.

  A point cloud of 300000 points carries, per point, four 32-bit words (x, z, y, batch) and 32 channel values. Every point
  is given the voxel row  batch·1920000 + x·4800 + y·12 + clamp(z, 0, 11)  in 32-bit arithmetic (a negative row wrapped
  once by 3840000, the convention of indexing from the end), and the channel rows are summed into a dense array of 3840000 rows by 32 channels.

  * `voxelRow`: the row word of every point, as the column the accumulating scatter reads;
  * `floorDiv`: the floor division of integers by a broadcast row of divisors, spelt through the truncated quotient, and `floorDiv_one`: by the divisor 1 it is
    the identity on every 32-bit word (the signed quotient by 1 is the word, the remainder is 0, so no correction is made);
  * `slice_of_slice`: one column cut out of the first three columns is that column of the four;
  * `viewRef` and `viewKer`: the dense array regrouped as [batch, 384, x, y] along two roads — split into
    [batch, x, y, 384] and transposed, or split into [batch, x·400 + y, 384], its last two axes exchanged, and the long axis
    split again — and `view_eq`: the two roads read the dense array at the same row-major position.
-/
import Idealize.ShloMosaic.PureOps
import Idealize.ShloMosaic.Lib.ValueIdx
import Idealize.ShloMosaic.Lib.Pipeline.Value

noncomputable section

namespace Cert.Voxel

open Idealize.ShloMosaic Idealize.ShloMosaic.ValueIdx

abbrev SN4 : Shape := ⟨2, ![300000, 4]⟩
abbrev SN3 : Shape := ⟨2, ![300000, 3]⟩
abbrev SN1 : Shape := ⟨2, ![300000, 1]⟩
abbrev SN : Shape := ⟨1, ![300000]⟩
abbrev S0 : Shape := ⟨0, ![]⟩
abbrev S3 : Shape := ⟨1, ![3]⟩
abbrev S13 : Shape := ⟨2, ![1, 3]⟩
abbrev SNC : Shape := ⟨2, ![300000, 32]⟩
abbrev SD : Shape := ⟨2, ![3840000, 32]⟩
abbrev SK3 : Shape := ⟨3, ![2, 160000, 384]⟩
abbrev SO3 : Shape := ⟨3, ![2, 384, 160000]⟩
abbrev SR4 : Shape := ⟨4, ![2, 400, 400, 384]⟩
abbrev SO4 : Shape := ⟨4, ![2, 384, 400, 400]⟩

/-! ## The row of every point -/

/-- The voxel row of every point from its four words: the height clamped into [0, 11], the mixed-radix sum in 32-bit
    arithmetic, a negative sum moved up by the number of rows, and the result as a one-column matrix. -/
def voxelRow (hb : S0.BroadcastsInDim SN (![] : Fin 0 → Fin SN.rank)) (hc : SN.BroadcastsInDim SN1 (![0] : Fin 1 → Fin SN1.rank))
    (b x y z : IVec SN 32) : IVec SN1 32 :=
  let zc : IVec SN 32 := minsi (broadcastInDim SN ![] hb (id (constantI S0 32 11#32)))
    (maxsi (broadcastInDim SN ![] hb (id (constantI S0 32 0#32))) z)
  let v : IVec SN 32 := addi (addi (addi (muli b (broadcastInDim SN ![] hb (constantI S0 32 1920000#32)))
    (muli x (broadcastInDim SN ![] hb (constantI S0 32 4800#32)))) (muli y (broadcastInDim SN ![] hb (constantI S0 32 12#32)))) zc
  broadcastInDim SN1 ![0] hc
    (select (cmpi .slt v (broadcastInDim SN ![] hb (constantI S0 32 0#32)))
      (addi v (broadcastInDim SN ![] hb (constantI S0 32 3840000#32))) v)

/-- The dense array: the points' channel rows summed into the zero array at their voxel rows. -/
def dense {F : FTy → Type} [FloatOps F] (sc : ScatterDims SD SN1 SNC) (hz : S0.BroadcastsInDim SD (![] : Fin 0 → Fin SD.rank))
    (rows : IVec SN1 32) (feats : FVec F SNC .f32) : FVec F SD .f32 :=
  Host.scatterAdd sc (broadcastInDim SD ![] hz (constant S0 .f32 0x00000000#32)) rows feats

/-! ## Floor division by one -/

/-- The floor division of a three-column matrix by a row of three divisors: the truncated quotient, lowered by one where
    the signs of dividend and divisor differ and the remainder is not zero. -/
def floorDiv (h13 : S3.BroadcastsInDim S13 (![1] : Fin 1 → Fin S13.rank)) (h3 : S13.BroadcastsInDim SN3 (![0, 1] : Fin 2 → Fin SN3.rank))
    (h0 : S0.BroadcastsInDim SN3 (![] : Fin 0 → Fin SN3.rank)) (x : IVec SN3 32) (k : IVec S3 32) : IVec SN3 32 :=
  let k1 : IVec S13 32 := broadcastInDim S13 ![1] h13 k
  let q : IVec SN3 32 := Host.divsi x (broadcastInDim SN3 ![0, 1] h3 k1)
  select (andi (cmpi .ne (signi x) (broadcastInDim SN3 ![0, 1] h3 (signi k1)))
      (cmpi .ne (Host.remsi x (broadcastInDim SN3 ![0, 1] h3 k1)) (broadcastInDim SN3 ![] h0 (constantI S0 32 0#32))))
    (subi q (broadcastInDim SN3 ![] h0 (constantI S0 32 1#32))) q

/-- No 32-bit word divided by 1 is the overflowing corner of signed division. -/
theorem not_corner_one (x : BitVec 32) : ¬ IntOp.SDivCorner x 1#32 := by
  rintro (h | ⟨_, h⟩)
  · exact absurd h (by decide)
  · exact absurd h (by decide)

/-- The signed quotient of a word by 1 is the word. -/
theorem divsi_one (u : ArithUnit) (x : BitVec 32) : IntOp.divsi u x 1#32 = x := by
  unfold IntOp.divsi
  rw [if_neg (not_corner_one x)]
  exact BitVec.sdiv_one

/-- The signed remainder of a word by 1 is zero. -/
theorem remsi_one (u : ArithUnit) (x : BitVec 32) : IntOp.remsi u x 1#32 = 0#32 := by
  unfold IntOp.remsi
  rw [if_neg (not_corner_one x), BitVec.srem_eq]
  have h1 : (1#32 : BitVec 32).msb = false := by decide
  rw [h1]
  cases x.msb <;> simp [BitVec.umod_one]

/-- Floor division by the divisor 1 changes no word: the remainder is zero, so the quotient, which is the word, stands. -/
theorem floorDiv_one (h13) (h3) (h0) (x : IVec SN3 32) : floorDiv h13 h3 h0 x (constantI S3 32 1#32) = x := by
  funext i
  have hk : broadcastInDim SN3 ![0, 1] h3 (broadcastInDim S13 ![1] h13 (constantI S3 32 1#32)) i = 1#32 := rfl
  have hr : cmpi .ne (Host.remsi x (broadcastInDim SN3 ![0, 1] h3 (broadcastInDim S13 ![1] h13 (constantI S3 32 1#32))))
      (broadcastInDim SN3 ![] h0 (constantI S0 32 0#32)) i = 0#1 := by
    show IntOp.cmpi .ne (IntOp.remsi .host (x i) 1#32) 0#32 = 0#1
    rw [remsi_one]; decide
  show Scalar.select (IntOp.andi _ (cmpi .ne (Host.remsi x _) _ i)) _ (IntOp.divsi .host (x i) 1#32) = x i
  rw [hr, divsi_one]
  have ha : ∀ a : BitVec 1, IntOp.andi a 0#1 = 0#1 := by decide
  rw [ha, select_zero]

/-- Subtracting the zero row changes no word. -/
theorem sub_zero_row (h13 : S3.BroadcastsInDim S13 (![1] : Fin 1 → Fin S13.rank)) (h3 : S13.BroadcastsInDim SN3 (![0, 1] : Fin 2 → Fin SN3.rank))
    (x : IVec SN3 32) :
    subi x (broadcastInDim SN3 ![0, 1] h3 (broadcastInDim S13 ![1] h13 (constantI S3 32 0#32))) = x := by
  funext i
  show IntOp.subi (x i) 0#32 = x i
  unfold IntOp.subi
  simp

/-! ## A column of the first three columns -/

/-- Column `k` (one of the first three) cut out of the first three columns is column `k` of all four. -/
theorem slice_of_slice {α : Type} (k : Nat) (hk : k < 3) (x : SN4.Idx → α) (h43 : SN4.Slices ![0, 0] SN3)
    (h31 : SN3.Slices ![0, k] SN1) (h41 : SN4.Slices ![0, k] SN1) :
    extractStridedSlice SN1 ![0, k] (extractStridedSlice SN3 ![0, 0] x h43) h31 = extractStridedSlice SN1 ![0, k] x h41 := by
  funext j
  obtain ⟨n, u, rfl⟩ : ∃ (n : Fin 300000) (u : Fin 1), j = ix2 n u := ⟨j 0, j 1, eq_ix2 j⟩
  have hu : u.val = 0 := by omega
  rw [extractStridedSlice_apply ![0, k] _ h31 (ix2 n u) (ix2 n ⟨k, hk⟩) (fun a => by
        match a with
        | ⟨0, _⟩ => show n.val = 0 + n.val; omega
        | ⟨1, _⟩ => show k = k + u.val; omega),
    extractStridedSlice_apply ![0, 0] x h43 (ix2 n ⟨k, hk⟩) (ix2 n ⟨k, by omega⟩) (fun a => by
        match a with
        | ⟨0, _⟩ => show n.val = 0 + n.val; omega
        | ⟨1, _⟩ => show k = 0 + k; omega),
    extractStridedSlice_apply ![0, k] x h41 (ix2 n u) (ix2 n ⟨k, by omega⟩) (fun a => by
        match a with
        | ⟨0, _⟩ => show n.val = 0 + n.val; omega
        | ⟨1, _⟩ => show k = k + u.val; omega)]

/-! ## The two regroupings of the dense array -/

/-- The last two axes of a [2, 160000, 384] array exchanged. -/
def swapLast {α : Type} (x : SK3.Idx → α) : SO3.Idx → α := fun j => x (ix3 (j 0) (j 2) (j 1))

/-- The dense array split into [batch, x, y, 384] and carried to [batch, 384, x, y]. -/
def viewRef {α : Type} (hs : SD.ShapeCasts SR4) (ht : SR4.Transposes [0, 3, 1, 2] SO4) (d : SD.Idx → α) : SO4.Idx → α :=
  transpose SO4 [0, 3, 1, 2] (shapeCast SR4 d hs) ht

/-- The dense array split into [batch, x·400 + y, 384], the last two axes exchanged, the long axis split into (x, y). -/
def viewKer {α : Type} (hs : SD.ShapeCasts SK3) (ho : SO3.ShapeCasts SO4) (d : SD.Idx → α) : SO4.Idx → α :=
  shapeCast SO4 (swapLast (shapeCast SK3 d hs)) ho

/-- Both regroupings read, at [b, q, x, y], the dense array at row-major position ((b·400 + x)·400 + y)·384 + q. -/
theorem view_eq {α : Type} (hsR : SD.ShapeCasts SR4) (ht : SR4.Transposes [0, 3, 1, 2] SO4) (hsK : SD.ShapeCasts SK3)
    (ho : SO3.ShapeCasts SO4) (d : SD.Idx → α) : viewRef hsR ht d = viewKer hsK ho d := by
  funext j
  obtain ⟨b, q, x, y, rfl⟩ : ∃ (b : Fin 2) (q : Fin 384) (x : Fin 400) (y : Fin 400), j = ix4 b q x y :=
    ⟨j 0, j 1, j 2, j 3, eq_ix4 j⟩
  have hb := b.isLt; have hq := q.isLt; have hx := x.isLt; have hy := y.isLt
  -- the position in the dense array, as (row, channel)
  let pos : Nat := ((b.val * 400 + x.val) * 400 + y.val) * 384 + q.val
  have hpos : pos < 3840000 * 32 := by show ((b.val * 400 + x.val) * 400 + y.val) * 384 + q.val < _; omega
  let k : SD.Idx := ix2 (⟨pos / 32, by omega⟩ : Fin 3840000) (⟨pos % 32, Nat.mod_lt _ (by decide)⟩ : Fin 32)
  have hkpos : (SD.rowMajor k).val = pos := by
    rw [Shape.rowMajor_val_two]
    show pos / 32 * 32 + pos % 32 = pos
    omega
  have hl : viewRef hsR ht d (ix4 b q x y) = d k := by
    unfold viewRef
    rw [transpose_apply [0, 3, 1, 2] _ ht (ix4 b q x y) (ix4 b x y q) (fun a => by
        match a with
        | ⟨0, _⟩ => rfl
        | ⟨1, _⟩ => rfl
        | ⟨2, _⟩ => rfl
        | ⟨3, _⟩ => rfl)]
    refine shapeCast_apply d hsR (ix4 b x y q) k ?_
    rw [hkpos, Shape.rowMajor_val_four]
    rfl
  have hr : viewKer hsK ho d (ix4 b q x y) = d k := by
    unfold viewKer
    rw [shapeCast_apply _ ho (ix4 b q x y) (ix3 b q (⟨x.val * 400 + y.val, by omega⟩ : Fin 160000)) (by
        rw [Shape.rowMajor_val_three, Shape.rowMajor_val_four]
        show (b.val * 384 + q.val) * 160000 + (x.val * 400 + y.val) = ((b.val * 384 + q.val) * 400 + x.val) * 400 + y.val
        omega)]
    show shapeCast SK3 d hsK (ix3 b (⟨x.val * 400 + y.val, by omega⟩ : Fin 160000) q) = d k
    refine shapeCast_apply d hsK _ k ?_
    rw [hkpos, Shape.rowMajor_val_three]
    show pos = (b.val * 160000 + (x.val * 400 + y.val)) * 384 + q.val
    show ((b.val * 400 + x.val) * 400 + y.val) * 384 + q.val = _
    omega
  rw [hl, hr]

end Cert.Voxel

end
-- ==== Proof.RefRun.lean ====
/-
  The reference program run to its end, and its result read back as one term of the two argument arrays.

  The reference is a straight line of 64 array operations once its three outlined helpers (the floor division, the select inside
  it, the clamp) are written out where they are called. Every weakly fair execution runs them in order; each operation writes
  one buffer of its own, so the result buffer ends holding the operations composed: the dense array of summed channel rows
  (`Voxel.dense` at the rows `Voxel.voxelRow` of the point's batch word and its three floor-divided coordinates), split into
  [batch, x, y, 384] and carried to [batch, 384, x, y] (`Voxel.viewRef`). The two argument arrays are written by no operation.
-/
import proofs.«148275_j42279658062070_2_alg».proof.Proof.Gen.ReferenceIdeal
import proofs.«148275_j42279658062070_2_alg».proof.Proof.Spec
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's operations in order, each helper's operations written out at its call over that call's buffers. -/
abbrev ops : List (HloOp τ sig (Elt F)) :=
  [ StableHlo.nullary main_c (constantI S3 32 0#32),
    StableHlo.nullary main_c_0 (constantI S3 32 1#32),
    StableHlo.unary main_arg0 main_v0 ((extractStridedSlice S300000x1 ![0, 3] · slices_S300000x4_S300000x1_0_3) : (⟨S300000x4, .i32⟩ : BufTy).Contents (Elt F) → (⟨S300000x1, .i32⟩ : BufTy).Contents (Elt F)),
    StableHlo.reshape main_v0 main_v1 rfl shapeCasts_S300000x1_S300000,
    StableHlo.unary main_arg0 main_v2 ((extractStridedSlice S300000x3 ![0, 0] · slices_S300000x4_S300000x3_0_0) : (⟨S300000x4, .i32⟩ : BufTy).Contents (Elt F) → (⟨S300000x3, .i32⟩ : BufTy).Contents (Elt F)),
    StableHlo.unary main_c main_v3 (broadcastInDim S1x3 ![1] bcast_S3_S1x3_1 : (⟨S3, .i32⟩ : BufTy).Contents (Elt F) → (⟨S1x3, .i32⟩ : BufTy).Contents (Elt F)),
    StableHlo.unary main_v3 main_v4 (broadcastInDim S300000x3 ![0, 1] bcast_S1x3_S300000x3_0_1 : (⟨S1x3, .i32⟩ : BufTy).Contents (Elt F) → (⟨S300000x3, .i32⟩ : BufTy).Contents (Elt F)),
    StableHlo.binary main_v2 main_v4 main_v5 (subi : (⟨S300000x3, .i32⟩ : BufTy).Contents (Elt F) → (⟨S300000x3, .i32⟩ : BufTy).Contents (Elt F) → (⟨S300000x3, .i32⟩ : BufTy).Contents (Elt F)),
    StableHlo.TRef.unary (.of main_c_0 : StableHlo.TRef sig ⟨S3, .i32⟩) main_call0.v0 (broadcastInDim S1x3 ![1] bcast_S3_S1x3_1),
    StableHlo.TRef.unary main_call0.v0 main_call0.v1 (broadcastInDim S300000x3 ![0, 1] bcast_S1x3_S300000x3_0_1),
    StableHlo.TRef.binary (.of main_v5 : StableHlo.TRef sig ⟨S300000x3, .i32⟩) main_call0.v1 main_call0.v2 Host.divsi,
    StableHlo.TRef.unary (.of main_v5 : StableHlo.TRef sig ⟨S300000x3, .i32⟩) main_call0.v3 signi,
    StableHlo.TRef.unary main_call0.v0 main_call0.v4 signi,
    StableHlo.TRef.unary main_call0.v4 main_call0.v5 (broadcastInDim S300000x3 ![0, 1] bcast_S1x3_S300000x3_0_1),
    StableHlo.TRef.binary main_call0.v3 main_call0.v5 main_call0.v6 (cmpi .ne),
    StableHlo.TRef.unary main_call0.v0 main_call0.v7 (broadcastInDim S300000x3 ![0, 1] bcast_S1x3_S300000x3_0_1),
    StableHlo.TRef.binary (.of main_v5 : StableHlo.TRef sig ⟨S300000x3, .i32⟩) main_call0.v7 main_call0.v8 Host.remsi,
    StableHlo.TRef.nullary main_call0.c (constantI S_ 32 0#32),
    StableHlo.TRef.unary main_call0.c main_call0.v9 (broadcastInDim S300000x3 ![] bcast_S_S300000x3),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S300000x3 ![] bcast_S_S300000x3),
    StableHlo.TRef.binary main_call0.v2 main_call0.v12 main_call0.v13 subi,
    StableHlo.TRef.ternary main_call0.v11 main_call0.v13 main_call0.v2 main_call0.call0.v0 select,
    StableHlo.unary main_v6 main_v7 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v7 main_v8 rfl shapeCasts_S300000x1_S300000,
    StableHlo.unary main_v6 main_v9 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v9 main_v10 rfl shapeCasts_S300000x1_S300000,
    StableHlo.unary main_v6 main_v11 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v11 main_v12 rfl shapeCasts_S300000x1_S300000,
    StableHlo.nullary main_c_1 (constantI S_ 32 0#32),
    StableHlo.nullary main_c_2 (constantI S_ 32 11#32),
    StableHlo.TRef.unary (.of main_c_1 : StableHlo.TRef sig ⟨S_, .i32⟩) main_call1.v0 id,
    StableHlo.TRef.unary main_call1.v0 main_call1.v1 (broadcastInDim S300000 ![] bcast_S_S300000),
    StableHlo.TRef.binary main_call1.v1 (.of main_v12 : StableHlo.TRef sig ⟨S300000, .i32⟩) main_call1.v2 maxsi,
    StableHlo.TRef.unary (.of main_c_2 : StableHlo.TRef sig ⟨S_, .i32⟩) main_call1.v3 id,
    StableHlo.TRef.unary main_call1.v3 main_call1.v4 (broadcastInDim S300000 ![] bcast_S_S300000),
    StableHlo.TRef.binary main_call1.v4 main_call1.v2 main_call1.v5 minsi,
    StableHlo.nullary main_c_3 (constantI S_ 32 1920000#32),
    StableHlo.unary main_c_3 main_v14 (broadcastInDim S300000 ![] bcast_S_S300000 : (⟨S_, .i32⟩ : BufTy).Contents (Elt F) → (⟨S300000, .i32⟩ : BufTy).Contents (Elt F)),
    StableHlo.binary main_v1 main_v14 main_v15 (muli : (⟨S300000, .i32⟩ : BufTy).Contents (Elt F) → (⟨S300000, .i32⟩ : BufTy).Contents (Elt F) → (⟨S300000, .i32⟩ : BufTy).Contents (Elt F)),
    StableHlo.nullary main_c_4 (constantI S_ 32 4800#32),
    StableHlo.unary main_c_4 main_v16 (broadcastInDim S300000 ![] bcast_S_S300000 : (⟨S_, .i32⟩ : BufTy).Contents (Elt F) → (⟨S300000, .i32⟩ : BufTy).Contents (Elt F)),
    StableHlo.binary main_v8 main_v16 main_v17 (muli : (⟨S300000, .i32⟩ : BufTy).Contents (Elt F) → (⟨S300000, .i32⟩ : BufTy).Contents (Elt F) → (⟨S300000, .i32⟩ : BufTy).Contents (Elt F)),
    StableHlo.binary main_v15 main_v17 main_v18 (addi : (⟨S300000, .i32⟩ : BufTy).Contents (Elt F) → (⟨S300000, .i32⟩ : BufTy).Contents (Elt F) → (⟨S300000, .i32⟩ : BufTy).Contents (Elt F)),
    StableHlo.nullary main_c_5 (constantI S_ 32 12#32),
    StableHlo.unary main_c_5 main_v19 (broadcastInDim S300000 ![] bcast_S_S300000 : (⟨S_, .i32⟩ : BufTy).Contents (Elt F) → (⟨S300000, .i32⟩ : BufTy).Contents (Elt F)),
    StableHlo.binary main_v10 main_v19 main_v20 (muli : (⟨S300000, .i32⟩ : BufTy).Contents (Elt F) → (⟨S300000, .i32⟩ : BufTy).Contents (Elt F) → (⟨S300000, .i32⟩ : BufTy).Contents (Elt F)),
    StableHlo.binary main_v18 main_v20 main_v21 (addi : (⟨S300000, .i32⟩ : BufTy).Contents (Elt F) → (⟨S300000, .i32⟩ : BufTy).Contents (Elt F) → (⟨S300000, .i32⟩ : BufTy).Contents (Elt F)),
    StableHlo.binary main_v21 main_v13 main_v22 (addi : (⟨S300000, .i32⟩ : BufTy).Contents (Elt F) → (⟨S300000, .i32⟩ : BufTy).Contents (Elt F) → (⟨S300000, .i32⟩ : BufTy).Contents (Elt F)),
    StableHlo.nullary main_cst (constant S_ .f32 0x00000000#32),
    StableHlo.unary main_cst main_v23 (broadcastInDim S3840000x32 ![] bcast_S_S3840000x32 : (⟨S_, .f32⟩ : BufTy).Contents (Elt F) → (⟨S3840000x32, .f32⟩ : BufTy).Contents (Elt F)),
    StableHlo.nullary main_c_6 (constantI S_ 32 0#32),
    StableHlo.unary main_c_6 main_v24 (broadcastInDim S300000 ![] bcast_S_S300000 : (⟨S_, .i32⟩ : BufTy).Contents (Elt F) → (⟨S300000, .i32⟩ : BufTy).Contents (Elt F)),
    StableHlo.binary main_v22 main_v24 main_v25 (cmpi .slt : (⟨S300000, .i32⟩ : BufTy).Contents (Elt F) → (⟨S300000, .i32⟩ : BufTy).Contents (Elt F) → (⟨S300000, .i1⟩ : BufTy).Contents (Elt F)),
    StableHlo.nullary main_c_7 (constantI S_ 32 3840000#32),
    StableHlo.unary main_c_7 main_v26 (broadcastInDim S300000 ![] bcast_S_S300000 : (⟨S_, .i32⟩ : BufTy).Contents (Elt F) → (⟨S300000, .i32⟩ : BufTy).Contents (Elt F)),
    StableHlo.binary main_v22 main_v26 main_v27 (addi : (⟨S300000, .i32⟩ : BufTy).Contents (Elt F) → (⟨S300000, .i32⟩ : BufTy).Contents (Elt F) → (⟨S300000, .i32⟩ : BufTy).Contents (Elt F)),
    StableHlo.ternary main_v25 main_v27 main_v22 main_v28 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v28 main_v29 (broadcastInDim S300000x1 ![0] bcast_S300000_S300000x1_0 : (⟨S300000, .i32⟩ : BufTy).Contents (Elt F) → (⟨S300000x1, .i32⟩ : BufTy).Contents (Elt F)),
    StableHlo.ternary main_v23 main_v29 main_arg1 main_v30 ((fun x i u => Host.scatterAdd scatter_S3840000x32_S300000x1_S300000x32_1_0_0_1 x i u) : (⟨S3840000x32, .f32⟩ : BufTy).Contents (Elt F) → (⟨S300000x1, .i32⟩ : BufTy).Contents (Elt F) → (⟨S300000x32, .f32⟩ : BufTy).Contents (Elt F) → (⟨S3840000x32, .f32⟩ : BufTy).Contents (Elt F)),
    StableHlo.reshape main_v30 main_v31 rfl shapeCasts_S3840000x32_S2x400x400x384,
    StableHlo.unary main_v31 main_v32 ((transpose S2x384x400x400 [0, 3, 1, 2] · transposes_S2x400x400x384_S2x384x400x400_0_3_1_2) : (⟨S2x400x400x384, .f32⟩ : BufTy).Contents (Elt F) → (⟨S2x384x400x400, .f32⟩ : BufTy).Contents (Elt F)) ]

set_option maxRecDepth 4096 in
/-- The program is that straight line: the helpers' bodies unfolded at their calls, sequencing re-associated. -/
theorem main_eq (c : Dev nD) : main (F := F) c = seq ops := by
  simp only [main, fn_floor_divide.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨StableHlo.nullary_bufs_sub .., StableHlo.nullary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.reshape_bufs_sub .., StableHlo.unary_bufs_sub ..⟩

/-- Every weakly fair execution terminates with every buffer at the operations' fold over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as one term of the arguments -/

/-- The voxel row of every point as the reference spells it: the batch word is column 3; the three coordinates are the first
    three columns less the zero offset, floor-divided by the unit stride, and of those column 0 is x, column 2 is y, column 1 the
    height. -/
def rowsR (coords : IVec S300000x4 32) : IVec S300000x1 32 :=
  let cdiv : IVec S300000x3 32 := Voxel.floorDiv bcast_S3_S1x3_1 bcast_S1x3_S300000x3_0_1 bcast_S_S300000x3
    (subi (extractStridedSlice S300000x3 ![0, 0] coords slices_S300000x4_S300000x3_0_0)
      (broadcastInDim S300000x3 ![0, 1] bcast_S1x3_S300000x3_0_1 (broadcastInDim S1x3 ![1] bcast_S3_S1x3_1 (constantI S3 32 0#32))))
    (constantI S3 32 1#32)
  Voxel.voxelRow bcast_S_S300000 bcast_S300000_S300000x1_0
    (shapeCast S300000 (extractStridedSlice S300000x1 ![0, 3] coords slices_S300000x4_S300000x1_0_3) shapeCasts_S300000x1_S300000)
    (shapeCast S300000 (extractStridedSlice S300000x1 ![0, 0] cdiv slices_S300000x3_S300000x1_0_0) shapeCasts_S300000x1_S300000)
    (shapeCast S300000 (extractStridedSlice S300000x1 ![0, 2] cdiv slices_S300000x3_S300000x1_0_2) shapeCasts_S300000x1_S300000)
    (shapeCast S300000 (extractStridedSlice S300000x1 ![0, 1] cdiv slices_S300000x3_S300000x1_0_1) shapeCasts_S300000x1_S300000)

/-- The reference's result: the dense array at those rows, regrouped as [batch, 384, x, y] by a split and a transposition. -/
def outR (coords : IVec S300000x4 32) (feats : FVec F S300000x32 .f32) : FVec F S2x384x400x400 .f32 :=
  Voxel.viewRef shapeCasts_S3840000x32_S2x400x400x384 transposes_S2x400x400x384_S2x384x400x400_0_3_1_2
    (Voxel.dense scatter_S3840000x32_S300000x1_S300000x32_1_0_0_1 bcast_S_S3840000x32 (rowsR coords) feats)

attribute [local irreducible] Host.scatterAdd in
set_option maxRecDepth 8192 in
/-- The fold at the result buffer is that term: each operation's result read at the buffer it writes. -/
theorem res_eq (V : Valuation τ sig (Elt F)) :
    after ops V (main_v32 : DevRef τ sig) = outR (V (main_arg0 : DevRef τ sig)) (V (main_arg1 : DevRef τ sig)) := by
  after_results_simp
  simp only [cast_eq]
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- Every weakly fair execution of the reference terminates with its result at `outR` of the argument arrays, and these
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = outR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v32).trans (res_eq _), (h c main_arg0).trans (arg0_eq _),
      (h c main_arg1).trans (arg1_eq _)⟩) (run_fold m ρ)

end Cert.ReferenceIdeal.Hand

end
-- ==== Proof.KernelRun.lean ====
/-
  The kernel's program run to its end, and its result read back as one term of the two argument arrays.

  Before the grid runs, the host operations leave in the grid's input array the dense array of summed channel rows split into
  [batch, 160000, 384]. The grid has 2 · 25 · 3 points; at point (b, i, c) the body loads the block of 6400 positions by 128
  channels at block index (b, i, c), exchanges its two axes, and stores the 128 by 6400 result as block (b, c, i) of the output.
  So every point writes back its block of ONE array — the input with its last two axes exchanged (`Voxel.swapLast`) — and the
  blocks (b, c, i) tile the [2, 384, 160000] output, which therefore ends holding that array. The one host operation after the
  grid splits the long axis into (400, 400).
-/
import proofs.«148275_j42279658062070_2_alg».proof.Proof.Gen.KernelIdeal.Frame
import proofs.«148275_j42279658062070_2_alg».proof.Proof.Spec
import Idealize.ShloMosaic.Lib.Pipeline.Value
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]

/-! ## What one grid point computes -/

/-- The body's stored value at (u, p, q) is its loaded block at (u, q, p): a unit axis dropped, the two axes exchanged, the unit
    axis put back. -/
theorem pay_read (x0 : Vec F S1x6400x128 .f32) (u : Fin 1) (p : Fin 128) (q : Fin 6400) :
    k0_pay1 x0 (ix3 u p q) = x0 (ix3 u q p) := by
  have hu : u.val = 0 := by omega
  unfold k0_pay1
  refine (shapeCast_apply _ shapeCasts_S128x6400_S1x128x6400 (ix3 u p q) (ix2 p q) ?_).trans ?_
  · rw [Shape.rowMajor_val_two, Shape.rowMajor_val_three]
    show p.val * 6400 + q.val = (u.val * 128 + p.val) * 6400 + q.val
    omega
  refine (transpose_apply [1, 0] _ transposes_S6400x128_p1_0_S128x6400 (ix2 p q) (ix2 q p) (fun b => by
    match b with
    | ⟨0, _⟩ => rfl
    | ⟨1, _⟩ => rfl)).trans ?_
  refine shapeCast_apply x0 shapeCasts_S1x6400x128_S6400x128 (ix2 q p) (ix3 u q p) ?_
  rw [Shape.rowMajor_val_two, Shape.rowMajor_val_three]
  show (u.val * 6400 + q.val) * 128 + p.val = q.val * 128 + p.val
  omega

/-! ## The arrays around the grid -/

variable (m : (ℓ : Loc nD τ sig) → Buf (Elt F) ℓ) (ρ : Dev nD → PrngReg)

/-- The voxel row of every point as the kernel's program spells it: the batch word is column 3, x column 0, y column 2 and the
    height column 1 of the four, each cut out directly. -/
def rowsK (coords : IVec S300000x4 32) : IVec S300000x1 32 :=
  Voxel.voxelRow bcast_S_S300000 bcast_S300000_S300000x1_0
    (shapeCast S300000 (extractStridedSlice S300000x1 ![0, 3] coords slices_S300000x4_S300000x1_0_3) shapeCasts_S300000x1_S300000)
    (shapeCast S300000 (extractStridedSlice S300000x1 ![0, 0] coords slices_S300000x4_S300000x1_0_0) shapeCasts_S300000x1_S300000)
    (shapeCast S300000 (extractStridedSlice S300000x1 ![0, 2] coords slices_S300000x4_S300000x1_0_2) shapeCasts_S300000x1_S300000)
    (shapeCast S300000 (extractStridedSlice S300000x1 ![0, 1] coords slices_S300000x4_S300000x1_0_1) shapeCasts_S300000x1_S300000)

/-- The dense array at those rows. -/
def denseK (coords : IVec S300000x4 32) (feats : FVec F S300000x32 .f32) : FVec F S3840000x32 .f32 :=
  Voxel.dense scatter_S3840000x32_S300000x1_S300000x32_1_0_0_1 bcast_S_S3840000x32 (rowsK coords) feats

/-- The kernel's result: the dense array split into [batch, 160000, 384], the last two axes exchanged, the long axis split. -/
def outK (coords : IVec S300000x4 32) (feats : FVec F S300000x32 .f32) : FVec F S2x384x400x400 .f32 :=
  Voxel.viewKer shapeCasts_S3840000x32_S2x160000x384 shapeCasts_S2x384x160000_S2x384x400x400 (denseK coords feats)

attribute [local irreducible] Host.scatterAdd in
set_option maxRecDepth 8192 in
/-- When the grid starts, its input array holds the dense array split into [batch, 160000, 384]. -/
theorem entry_in (c : Dev nD) : (V m c main_v26 : S2x160000x384.Idx → F .f32)
    = shapeCast S2x160000x384 (denseK (m ((c.tc : Thread nD τ).loc main_arg0)) (m ((c.tc : Thread nD τ).loc main_arg1)))
        shapeCasts_S3840000x32_S2x160000x384 := by
  dsimp only [Gen.V, Gen.V0]
  simp only [Gen.hostOps0, Gen.hostOps0_1, Gen.hostOps0_2, List.flatten_cons, List.flatten_nil, List.append_nil, List.cons_append,
    List.nil_append]
  after_results_simp
  simp only [cast_eq]
  rfl

/-! ## From the points' blocks to the output array -/

theorem hz3 : (![0, 0, 0] : Fin 3 → Nat) = fun _ => 0 := funext fun a => by fin_cases a <;> rfl

/-- At every point the input's block index is the output's with its last two entries exchanged. -/
theorem idx_facts (t : Fin cfg0.N) : win0_0.index t (0 : Fin 3) = win0_1.index t (0 : Fin 3)
    ∧ win0_0.index t (1 : Fin 3) = win0_1.index t (2 : Fin 3)
    ∧ win0_0.index t (2 : Fin 3) = win0_1.index t (1 : Fin 3) := ⟨rfl, rfl, rfl⟩

/-- Every block of the output is some point's. -/
theorem idx_onto : ∀ (q0 : Fin 2) (q1 : Fin 3) (q2 : Fin 25), ∃ t : Fin cfg0.N, win0_1.index t = ![q0.val, q1.val, q2.val] :=
  (by decide +kernel : ∀ (q0 : Fin 2) (q1 : Fin 3) (q2 : Fin 25), ∃ t : Fin grid0.N, win0_1.index t = ![q0.val, q1.val, q2.val])

/-- What point `t` writes back is block `t` of the grid's input array with its last two axes exchanged. -/
theorem flushed_eq (c : Dev nD) (t : Fin cfg0.N) :
    (dats m 0 c).flushed 1 t = ((cfg0.win 1).blk t).view.read (Elt F) (Voxel.swapLast (V m c main_v26)) := by
  show (cfg0.win 1).cut (grid0.coords t) ((dats m 0 c).after 1 t) = _
  rw [after0_1]
  unfold out0_1
  rw [View.canon_unit_zero hz3]
  simp only [View.ld_unit_zero (S := S1x6400x128) hz3]
  obtain ⟨e0, e1, e2⟩ := idx_facts t
  funext j
  obtain ⟨u, p, q, rfl⟩ : ∃ (u : Fin 1) (p : Fin 128) (q : Fin 6400), j = ix3 u p q := ⟨j 0, j 1, j 2, eq_ix3 j⟩
  refine (pay_read (iblk m c 0 t) u p q).trans ?_
  show V m c main_v26 (((cfg0.win 0).blk t).view.emb (ix3 u q p))
    = V m c main_v26 (ix3 ((((cfg0.win 1).blk t).view.emb (ix3 u p q)) 0) ((((cfg0.win 1).blk t).view.emb (ix3 u p q)) 2)
        ((((cfg0.win 1).blk t).view.emb (ix3 u p q)) 1))
  refine congrArg (V m c main_v26) (funext fun a => Fin.ext ?_)
  match a with
  | ⟨0, _⟩ => show win0_0.index t (0 : Fin 3) * 1 + 1 * u.val = win0_1.index t (0 : Fin 3) * 1 + 1 * u.val; omega
  | ⟨1, _⟩ => show win0_0.index t (1 : Fin 3) * 6400 + 1 * q.val = win0_1.index t (2 : Fin 3) * 6400 + 1 * q.val; omega
  | ⟨2, _⟩ => show win0_0.index t (2 : Fin 3) * 128 + 1 * p.val = win0_1.index t (1 : Fin 3) * 128 + 1 * p.val; omega

/-- An index of the output array is in point `t`'s block iff each coordinate is in the block's range on its axis. -/
theorem mem_blk (t : Fin cfg0.N) (i : S2x384x160000.Idx) :
    i ∈ ((cfg0.win 1).blk t).view.set ↔ ∀ a : Fin 3, win0_1.index t a * S1x128x6400.size a ≤ (i a).val
      ∧ (i a).val < win0_1.index t a * S1x128x6400.size a + S1x128x6400.size a := by
  show i ∈ ((View.whole main_v27).slice (win0_1.rect t)).set ↔ _
  rw [View.set_slice_whole, Rect.mem_set_unit]
  exact Iff.rfl

/-- The blocks tile the output: the index (b, r, s) lies in the block with index (b, r / 128, s / 6400). -/
theorem cover (i : S2x384x160000.Idx) :
    ∃ t : Fin cfg0.N, (cfg0.win 1).flush t = true ∧ i ∈ ((cfg0.win 1).blk t).view.set := by
  have h0 : (i 0).val < 2 := (i 0).isLt
  have h1 : (i 1).val < 384 := (i 1).isLt
  have h2 : (i 2).val < 160000 := (i 2).isLt
  obtain ⟨t, ht⟩ := idx_onto ⟨(i 0).val, h0⟩ ⟨(i 1).val / 128, by omega⟩ ⟨(i 2).val / 6400, by omega⟩
  have q0 : win0_1.index t (0 : Fin 3) = (i 0).val := congrFun ht 0
  have q1 : win0_1.index t (1 : Fin 3) = (i 1).val / 128 := congrFun ht 1
  have q2 : win0_1.index t (2 : Fin 3) = (i 2).val / 6400 := congrFun ht 2
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 128 ≤ (i 1).val ∧ (i 1).val < win0_1.index t (1 : Fin 3) * 128 + 128; omega
  | ⟨2, _⟩ => show win0_1.index t (2 : Fin 3) * 6400 ≤ (i 2).val ∧ (i 2).val < win0_1.index t (2 : Fin 3) * 6400 + 6400; omega

/-- After the grid the output array holds the grid's input array with its last two axes exchanged. -/
theorem final (c : Dev nD) : (dats m 0 c).arrAt 1 cfg0.N = Voxel.swapLast (V m c main_v26) :=
  (dats m 0 c).arrAt_eq_of_cover 1 _ (fun t _ => flushed_eq m c t) cover

/-! ## The operation after the grid, and the run -/

/-- The result buffer after the one operation that follows the grid: the output array with its long axis split. -/
theorem tail_eq (c : Dev nD) :
    Pipeline.afterTail₀ cfgs (dats m) 0 (V0 m) [hostOps1] c main_v28
      = outK (m ((c.tc : Thread nD τ).loc main_arg0)) (m ((c.tc : Thread nD τ).loc main_arg1)) := by
  unfold Pipeline.afterTail₀
  show StableHlo.after hostOps1 _ (Proc.devRef .tc main_v28) = _
  after_results
  rw [show Pipeline.withArrays (cfgs 0).spec c (V0 m c) (fun w => (dats m 0 c).arrAt w (cfgs 0).N) (Proc.devRef .tc main_v27)
        = Voxel.swapLast (V m c main_v26) from
      (Pipeline.withArrays_arr spec0 launch0.win.arr_inj c _ _ 1).trans (final m c)]
  rw [entry_in]
  rfl

/-- Every weakly fair execution of the kernel's program terminates with its result at `outK` of the argument arrays, and these
    unchanged. -/
theorem run : θ_run defs (onTc (τ := τ) (main (F := F))) ⟨m, fun _ => 0, ρ⟩ fun r => ∀ c : Dev nD,
      r.2.mem ((c.tc : Thread nD τ).loc main_v28) = outK (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v28 (Pipeline.mem_restRefs_of main_v28 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.Bridge.lean ====
/-
  The two results are one array.

  Both programs sum the points' channel rows into the dense array at the rows `Voxel.voxelRow` of four words per point, and differ
  in two places only. The reference first subtracts a zero offset from the three coordinates and floor-divides them by a unit
  stride, which changes no 32-bit word (`Voxel.sub_zero_row`, `Voxel.floorDiv_one`), and then cuts its columns out of those three
  (`Voxel.slice_of_slice`); so the rows are the same words. And the two programs regroup the dense array as [batch, 384, x, y]
  along different roads that read it at the same position (`Voxel.view_eq`).
-/
import proofs.«148275_j42279658062070_2_alg».proof.Proof.RefRun
import proofs.«148275_j42279658062070_2_alg».proof.Proof.KernelRun

noncomputable section

namespace Cert.Voxel

open Idealize.ShloMosaic

/-- The reference's rows are the kernel's: the same four columns of the coordinate array go into the same row arithmetic. -/
theorem rows_eq (coords : IVec SN4 32) : Cert.ReferenceIdeal.Hand.rowsR coords = Cert.KernelIdeal.Hand.rowsK coords := by
  unfold Cert.ReferenceIdeal.Hand.rowsR Cert.KernelIdeal.Hand.rowsK
  dsimp only
  rw [sub_zero_row, floorDiv_one,
    slice_of_slice 0 (by decide) coords _ _ Cert.KernelIdeal.Gen.slices_S300000x4_S300000x1_0_0,
    slice_of_slice 2 (by decide) coords _ _ Cert.KernelIdeal.Gen.slices_S300000x4_S300000x1_0_2,
    slice_of_slice 1 (by decide) coords _ _ Cert.KernelIdeal.Gen.slices_S300000x4_S300000x1_0_1]

/-- The two programs name the accumulating scatter's dimension numbers separately; they are the same numbers. -/
theorem scatter_eq : Cert.ReferenceIdeal.scatter_S3840000x32_S300000x1_S300000x32_1_0_0_1
    = Cert.KernelIdeal.scatter_S3840000x32_S300000x1_S300000x32_1_0_0_1 := rfl

/-- The reference's result is the kernel's, as functions of the two argument arrays, over any float values. -/
theorem out_eq {F : FTy → Type} [FloatOps F] (coords : IVec SN4 32) (feats : FVec F SNC .f32) :
    Cert.ReferenceIdeal.Hand.outR coords feats = Cert.KernelIdeal.Hand.outK coords feats := by
  unfold Cert.ReferenceIdeal.Hand.outR Cert.KernelIdeal.Hand.outK Cert.KernelIdeal.Hand.denseK
  rw [rows_eq, scatter_eq]
  exact view_eq _ _ _ _ _

end Cert.Voxel

end
-- ==== Proof.lean ====
/-
  The certificate's five claims.

  The kernel's program scatters the points' channel rows into a dense voxel array on the host, regroups it as
  [batch, 160000, 384], exchanges the last two axes block by block on a 2 by 25 by 3 grid, and splits the long axis into
  (400, 400); the reference scatters the same rows into the same dense array, splits it into [batch, 400, 400, 384] and transposes.
  The three frames are the generated frame runs (the kernel's two) and the reference's run with its result dropped; the
  idealization rewrote nothing; and at the exact instance both results are one function of the argument arrays (`Voxel.out_eq`),
  for every input — the precondition is not used.
-/
import proofs.«148275_j42279658062070_2_alg».proof.Defs
import proofs.«148275_j42279658062070_2_alg».proof.Proof.Gen.Kernel
import proofs.«148275_j42279658062070_2_alg».proof.Proof.Gen.Kernel.Frame
import proofs.«148275_j42279658062070_2_alg».proof.Proof.Gen.KernelIdeal
import proofs.«148275_j42279658062070_2_alg».proof.Proof.Gen.KernelIdeal.Frame
import proofs.«148275_j42279658062070_2_alg».proof.Proof.Gen.ReferenceIdeal
import proofs.«148275_j42279658062070_2_alg».proof.Proof.Gen.Pre_finite_inputs
import proofs.«148275_j42279658062070_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- The idealization changed no operation. -/
theorem preserves : Cert.preserves_Kernel_KernelIdeal := trivial

/-- From memories that agree on the two arguments both programs end with the same array: the kernel's result as a function of
    its arguments, and the reference's, which is the same function. -/
theorem algebraic : Cert.algebraic_KernelIdeal_ReferenceIdeal := by
  intro m ρ m' ρ' _ hagree
  refine ⟨_, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  exact Cert.Voxel.out_eq _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
